-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x100 : Shape := ⟨2, ![128, 100]⟩
abbrev S100 : Shape := ⟨1, ![100]⟩
abbrev S100x128 : Shape := ⟨2, ![100, 128]⟩
abbrev S128 : Shape := ⟨1, ![128]⟩
abbrev S128x512 : Shape := ⟨2, ![128, 512]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S128x512 .f32) (main_arg9 : FVec F S512 .f32) (main_v33 : IVec S_ 1) : IVec S_ 1 :=
  let main_v34 : FVec F S128x512 .f32 := Host.absf main_arg8
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S100x128 .f32) (main_arg6 : FVec F S100x128 .f32) (main_arg7 : FVec F S128 .f32) (main_arg8 : FVec F S128x512 .f32) (main_arg9 : FVec F S512 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x128 .f32 := Host.absf main_arg5
  let main_cst_6 : FVec F S_ .f32 := constant S_ .f32 0x7F800000#32
  let main_v20 : FVec F S100x128 .f32 := broadcastInDim S100x128 ![] bcast_S_S100x128 main_cst_6
  let main_v21 : IVec S100x128 1 := cmpf .olt main_v19 main_v20
  let main_c_7 : IVec S_ 1 := constantI S_ 1 1#1
  let main_v22 : IVec S_ 1 := (fun x v => Host.reduce IntOp.andi x v reducesTo_S100x128_S_d0_1 h_S_) main_v21 main_c_7
  let main_v23 : IVec S_ 1 := andi main_v18 main_v22
  let main_v24 : FVec F S100x128 .f32 := Host.absf main_arg6
  let main_cst_8 : FVec F S_ .f32 := constant S_ .f32 0x7F800000#32
  let main_v25 : FVec F S100x128 .f32 := broadcastInDim S100x128 ![] bcast_S_S100x128 main_cst_8
  let main_v26 : IVec S100x128 1 := cmpf .olt main_v24 main_v25
  let main_c_9 : IVec S_ 1 := constantI S_ 1 1#1
  let main_v27 : IVec S_ 1 := (fun x v => Host.reduce IntOp.andi x v reducesTo_S100x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x100 .f32) (main_arg3 : FVec F S128x100 .f32) (main_arg4 : FVec F S100 .f32) (main_arg5 : FVec F S100x128 .f32) (main_arg6 : FVec F S100x128 .f32) (main_arg7 : FVec F S128 .f32) (main_arg8 : FVec F S128x512 .f32) (main_arg9 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100 .f32 := Host.absf main_arg2
  let main_cst_0 : FVec F S_ .f32 := constant S_ .f32 0x7F800000#32
  let main_v5 : FVec F S128x100 .f32 := broadcastInDim S128x100 ![] bcast_S_S128x100 main_cst_0
  let main_v6 : IVec S128x100 1 := cmpf .olt main_v4 main_v5
  let main_c_1 : IVec S_ 1 := constantI S_ 1 1#1
  let main_v7 : IVec S_ 1 := (fun x v => Host.reduce IntOp.andi x v reducesTo_S128x100_S_d0_1 h_S_) main_v6 main_c_1
  let main_v8 : IVec S_ 1 := andi main_v3 main_v7
  let main_v9 : FVec F S128x100 .f32 := Host.absf main_arg3
  let main_cst_2 : FVec F S_ .f32 := constant S_ .f32 0x7F800000#32
  let main_v10 : FVec F S128x100 .f32 := broadcastInDim S128x100 ![] bcast_S_S128x100 main_cst_2
  let main_v11 : IVec S128x100 1 := cmpf .olt main_v9 main_v10
  let main_c_3 : IVec S_ 1 := constantI S_ 1 1#1
  let main_v12 : IVec S_ 1 := (fun x v => Host.reduce IntOp.andi x v reducesTo_S128x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x100 : Shape := ⟨2, ![128, 100]⟩
abbrev S100 : Shape := ⟨1, ![100]⟩
abbrev S100x128 : Shape := ⟨2, ![100, 128]⟩
abbrev S128 : Shape := ⟨1, ![128]⟩
abbrev S128x512 : Shape := ⟨2, ![128, 512]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x100 : Shape := ⟨2, ![1, 100]⟩
abbrev S100000x100 : Shape := ⟨2, ![100000, 100]⟩
abbrev S2000x128 : Shape := ⟨2, ![2000, 128]⟩
abbrev S2000x100 : Shape := ⟨2, ![2000, 100]⟩
abbrev S1600000x100 : Shape := ⟨2, ![1600000, 100]⟩
abbrev S1x128 : Shape := ⟨2, ![1, 128]⟩
abbrev S1x512 : Shape := ⟨2, ![1, 512]⟩
abbrev S100000x512 : Shape := ⟨2, ![100000, 512]⟩
abbrev S2000x512 : Shape := ⟨2, ![2000, 512]⟩

abbrev nBuf : Space → Nat
  | .hbm => 89
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x100, .f32⟩
  | .hbm, ⟨3, _⟩ => ⟨S128x100, .f32⟩
  | .hbm, ⟨4, _⟩ => ⟨S100, .f32⟩
  | .hbm, ⟨5, _⟩ => ⟨S100x128, .f32⟩
  | .hbm, ⟨6, _⟩ => ⟨S100x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x100, .f32⟩
  | .hbm, ⟨68, _⟩ => ⟨S100000x100, .f32⟩
  | .hbm, ⟨69, _⟩ => ⟨S1600000x1, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x100, .f32⟩
  | .hbm, ⟨79, _⟩ => ⟨S1600000x100, .f32⟩
  | .hbm, ⟨80, _⟩ => ⟨S1600000x100, .f32⟩
  | .hbm, ⟨81, _⟩ => ⟨S_, .f32⟩
  | .hbm, ⟨82, _⟩ => ⟨S100000x100, .f32⟩
  | .hbm, ⟨83, _⟩ => ⟨S1600000x1, .i32⟩
  | .hbm, ⟨84, _⟩ => ⟨S100000x100, .f32⟩
  | .hbm, ⟨85, _⟩ => ⟨S1x128, .f32⟩
  | .hbm, ⟨86, _⟩ => ⟨S100000x128, .f32⟩
  | .hbm, ⟨87, _⟩ => ⟨S1x512, .f32⟩
  | .hbm, ⟨88, _⟩ => ⟨S100000x512, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x100, .f32⟩
  | .local _ .vmem, ⟨5, _⟩ => ⟨S128x100, .f32⟩
  | .local _ .vmem, ⟨6, _⟩ => ⟨S1x100, .f32⟩
  | .local _ .vmem, ⟨7, _⟩ => ⟨S2000x100, .f32⟩
  | .local _ .vmem, ⟨8, _⟩ => ⟨S2000x100, .f32⟩
  | .local _ .vmem, ⟨9, _⟩ => ⟨S2000x100, .f32⟩
  | .local _ .vmem, ⟨10, _⟩ => ⟨S2000x100, .f32⟩
  | .local _ .vmem, ⟨11, _⟩ => ⟨S2000x100, .f32⟩
  | .local _ .vmem, ⟨12, _⟩ => ⟨S2000x100, .f32⟩
  | .local _ .vmem, ⟨13, _⟩ => ⟨S100x128, .f32⟩
  | .local _ .vmem, ⟨14, _⟩ => ⟨S100x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100_S1x100 : S100.ShapeCasts S1x100
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x100_S128x100_0_0 : ∀ a, (![0, 0] : Fin 2 → Nat) a + S128x100.size a ≤ S128x100.size a
  h_S128x100 : 0 < S128x100.numel
  shapeCasts_S2000x128_S2000x128 : S2000x128.ShapeCasts S2000x128
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  bcast_S1600000x1_S1600000x100_0_1 : S1600000x1.BroadcastsInDim S1600000x100 (![0, 1] : Fin 2 → Fin S1600000x100.rank)
  bcast_S_S100000x100 : S_.BroadcastsInDim S100000x100 (![] : Fin 0 → Fin S100000x100.rank)
  shapeCasts_S128_S1x128 : S128.ShapeCasts S1x128
  shapeCasts_S2000x100_S2000x100 : S2000x100.ShapeCasts S2000x100
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S512_S1x512 : S512.ShapeCasts S1x512
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x100_S2000x100_1_0_0_1_n_n_wf : DotDims.WF S2000x128 S128x100 S2000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S2000x100_S100x128_S2000x128_1_0_0_1_n_n_wf : DotDims.WF S2000x100 S100x128 S2000x128 [1] [0] [0] [1] [] []
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S128x100.size a
  hwx0_2 : ∀ i : grid0.Coords, EltTy.bits .f32 = 32 ∨ (Rect.block (s := S128x100) S128x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x100.size a ≤ S128x100.size a
  hwx0_3 : ∀ i : grid0.Coords, EltTy.bits .f32 = 32 ∨ (Rect.block (s := S128x100) S128x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x100.size a ≤ S100000x100.size a
  hwx0_5 : ∀ i : grid0.Coords, EltTy.bits .f32 = 32 ∨ (Rect.block (s := S100000x100) S2000x100.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x100.size a ≤ S100000x100.size a
  hwx1_0 : ∀ i : grid1.Coords, EltTy.bits .f32 = 32 ∨ (Rect.block (s := S100000x100) S2000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x100.size a ≤ S100000x100.size a
  hwx1_1 : ∀ i : grid1.Coords, EltTy.bits .f32 = 32 ∨ (Rect.block (s := S100000x100) S2000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x128.size a ≤ S100x128.size a
  hwx1_2 : ∀ i : grid1.Coords, EltTy.bits .f32 = 32 ∨ (Rect.block (s := S100x128) S100x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x128.size a ≤ S100x128.size a
  hwx1_3 : ∀ i : grid1.Coords, EltTy.bits .f32 = 32 ∨ (Rect.block (s := S100x128) S100x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S128x512.size a
  hwx2_1 : ∀ i : grid2.Coords, EltTy.bits .f32 = 32 ∨ (Rect.block (s := S128x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S100000x512.size a
  hwx2_3 : ∀ i : grid2.Coords, EltTy.bits .f32 = 32 ∨ (Rect.block (s := S100000x512) S2000x512.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x100_S2000x100_1_0_0_1_n_n : DotDims S2000x128 S128x100 S2000x100 where
  lhsContracting := [1]
  rhsContracting := [0]
  lhsNonContracting := [0]
  rhsNonContracting := [1]
  lhsBatch := []
  rhsBatch := []
  wf := dot_S2000x128_S128x100_S2000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S2000x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S100x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S100x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x100 : Shape := ⟨2, ![128, 100]⟩
abbrev S100 : Shape := ⟨1, ![100]⟩
abbrev S100x128 : Shape := ⟨2, ![100, 128]⟩
abbrev S128 : Shape := ⟨1, ![128]⟩
abbrev S128x512 : Shape := ⟨2, ![128, 512]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x100 : Shape := ⟨2, ![100000, 100]⟩
abbrev S1x100 : Shape := ⟨2, ![1, 100]⟩
abbrev S1600000x100 : Shape := ⟨2, ![1600000, 100]⟩
abbrev S1x128 : Shape := ⟨2, ![1, 128]⟩
abbrev S100000x512 : Shape := ⟨2, ![100000, 512]⟩
abbrev S1x512 : Shape := ⟨2, ![1, 512]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S128x100, .f32⟩
  | 3 => ⟨S128x100, .f32⟩
  | 4 => ⟨S100, .f32⟩
  | 5 => ⟨S100x128, .f32⟩
  | 6 => ⟨S100x128, .f32⟩
  | 7 => ⟨S128, .f32⟩
  | 8 => ⟨S128x512, .f32⟩
  | 9 => ⟨S512, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x100, .f32⟩
  | 68 => ⟨S100000x100, .f32⟩
  | 69 => ⟨S100000x100, .f32⟩
  | 70 => ⟨S1x100, .f32⟩
  | 71 => ⟨S100000x100, .f32⟩
  | 72 => ⟨S100000x100, .f32⟩
  | 73 => ⟨S_, .f32⟩
  | 74 => ⟨S100000x100, .f32⟩
  | 75 => ⟨S100000x100, .f32⟩
  | 76 => ⟨S1x1600000, .i32⟩
  | 77 => ⟨S1600000, .i32⟩
  | 78 => ⟨S1x1600000, .i32⟩
  | 79 => ⟨S1600000, .i32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S1600000, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x100, .f32⟩
  | 127 => ⟨S1600000x100, .f32⟩
  | _ => ⟨S100000x128, .f32⟩

abbrev hbmTy0_1 (i : Nat) : BufTy := match i % 128 with
  | 0 => ⟨S1600000x100, .f32⟩
  | 1 => ⟨S_, .f32⟩
  | 2 => ⟨S100000x100, .f32⟩
  | 3 => ⟨S1600000x1, .i32⟩
  | 4 => ⟨S100000x100, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x512, .f32⟩
  | 15 => ⟨S1x512, .f32⟩
  | 16 => ⟨S100000x512, .f32⟩
  | 17 => ⟨S100000x512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_19 : Ref sig .tc := ⟨.hbm, 118, rfl⟩
abbrev main_v81 : Ref sig .tc := ⟨.hbm, 119, rfl⟩
abbrev main_v82 : Ref sig .tc := ⟨.hbm, 120, rfl⟩
abbrev main_c_20 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call3_cst : Ref sig .tc := ⟨.hbm, 139, rfl⟩
abbrev main_call3_v0 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  bcast_S1600000x1_S1600000x100_0_1 : S1600000x1.BroadcastsInDim S1600000x100 (![0, 1] : Fin 2 → Fin S1600000x100.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x100_S100000x100_1_0_0_1_n_n_wf : DotDims.WF S100000x128 S128x100 S100000x100 [1] [0] [0] [1] [] []
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x128_S100000x128_1_0_0_1_n_n_wf : DotDims.WF S100000x100 S100x128 S100000x128 [1] [0] [0] [1] [] []
  dot_S100000x128_S128x512_S100000x512_1_0_0_1_n_n_wf : DotDims.WF S100000x128 S128x512 S100000x512 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x100_S100000x100_1_0_0_1_n_n : DotDims S100000x128 S128x100 S100000x100 where
  lhsContracting := [1]
  rhsContracting := [0]
  lhsNonContracting := [0]
  rhsNonContracting := [1]
  lhsBatch := []
  rhsBatch := []
  wf := dot_S100000x128_S128x100_S100000x100_1_0_0_1_n_n_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.KRun.lean ====
/-
  The idealized kernel program's run, with its result named.

  @main is a line of host operations, three pallas calls and the host operations between them. Running it from any
  memory ends with every buffer of the program at the contents the chain of segments leaves: host stretches apply their
  operations to the contents before them, and each pallas call replaces its output array by what its grid points wrote
  back. This module states that run with the result array (the third call's output) at those final contents, and the
  ten argument arrays as launched.
-/
import proofs.«136400_j7035156431047_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the last
    segment boundary names (`Gen.W8`) and the arguments unchanged. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Run

end
-- ==== Proof.Spec.lean ====
/-
  The dense stages of a two-term Chebyshev graph convolution, stated index by index on the extended reals.

  For a node-feature matrix `x` (N rows, K features), its propagated copy `tx` (the normalised-adjacency
  message pass of `x`), two weight matrices `w0 w1` (K × M) and a bias row `b` (M entries), one layer is

      out(r, j) = max ( ∑ₖ x(r,k)·w0(k,j) + ∑ₖ tx(r,k)·w1(k,j) + b(j) , 0 )

  and the final projection is `out(r, j) = ∑ₖ x(r,k)·w(k,j) + b(j)`. Every row of the output depends on the same
  row of the inputs only, which is why a tiling of the rows computes the same array as the whole product.
-/
import Idealize.ShloMosaic.PureOps.Ideal
import Idealize.ShloMosaic.Lib.ValueIdx

noncomputable section

open scoped BigOperators

namespace Cert.Spec

open Idealize.ShloMosaic Idealize.ShloMosaic.ValueIdx

/-- One entry of a matrix product: row `r` of `x` against column `j` of `w`. -/
def mm {N K M : Nat} (x : (⟨2, ![N, K]⟩ : Shape).Idx → EReal) (w : (⟨2, ![K, M]⟩ : Shape).Idx → EReal)
    (r : Fin N) (j : Fin M) : EReal :=
  ∑ k : Fin K, x (ix2 r k) * w (ix2 k j)

/-- One Chebyshev layer with its rectifier: `max (x·w0 + tx·w1 + b, 0)`, the two products summed first and the bias
    added to their sum. -/
def cheb {N K M : Nat} (x tx : (⟨2, ![N, K]⟩ : Shape).Idx → EReal) (w0 w1 : (⟨2, ![K, M]⟩ : Shape).Idx → EReal)
    (b : Fin M → EReal) : (⟨2, ![N, M]⟩ : Shape).Idx → EReal :=
  fun i => max (mm x w0 (i 0) (i 1) + mm tx w1 (i 0) (i 1) + b (i 1)) (Ideal.ofBits .f32 0x00000000#32)

/-- The final projection: `x·w + b`. -/
def affine {N K M : Nat} (x : (⟨2, ![N, K]⟩ : Shape).Idx → EReal) (w : (⟨2, ![K, M]⟩ : Shape).Idx → EReal)
    (b : Fin M → EReal) : (⟨2, ![N, M]⟩ : Shape).Idx → EReal :=
  fun i => mm x w (i 0) (i 1) + b (i 1)

/-- A product entry reads its left operand on one row only: operands that agree on row `r` (possibly at another
    row number `r'` of a taller or shorter matrix) give the same entry. -/
theorem mm_congr_row {N N' K M : Nat} (x : (⟨2, ![N, K]⟩ : Shape).Idx → EReal) (x' : (⟨2, ![N', K]⟩ : Shape).Idx → EReal)
    (w : (⟨2, ![K, M]⟩ : Shape).Idx → EReal) (r : Fin N) (r' : Fin N') (j : Fin M)
    (h : ∀ k : Fin K, x (ix2 r k) = x' (ix2 r' k)) : mm x w r j = mm x' w r' j := by
  unfold mm
  exact Finset.sum_congr rfl fun k _ => by rw [h k]

/-- The layer is a function of its five operands. -/
theorem cheb_congr {N K M : Nat} {x x' tx tx' : (⟨2, ![N, K]⟩ : Shape).Idx → EReal} {w0 w0' w1 w1' : (⟨2, ![K, M]⟩ : Shape).Idx → EReal}
    {b b' : Fin M → EReal} (hx : x = x') (ht : tx = tx') (h0 : w0 = w0') (h1 : w1 = w1') (hb : b = b') :
    cheb x tx w0 w1 b = cheb x' tx' w0' w1' b' := by
  subst hx ht h0 h1 hb; rfl

/-- The projection is a function of its three operands. -/
theorem affine_congr {N K M : Nat} {x x' : (⟨2, ![N, K]⟩ : Shape).Idx → EReal} {w w' : (⟨2, ![K, M]⟩ : Shape).Idx → EReal}
    {b b' : Fin M → EReal} (hx : x = x') (hw : w = w') (hb : b = b') : affine x w b = affine x' w' b' := by
  subst hx hw hb; rfl

end Cert.Spec

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.Pay2.lean ====
/-
  The body of pallas call 2 read at one entry of its 2000-row output block.

  The body multiplies the block of rows by the whole weight matrix on the matrix unit (into a zero accumulator, after
  a change of float format that is the identity on the extended reals) and adds the bias row to every row. Entry (p, j)
  of what it stores is therefore the specification's entry computed from row p of the block alone.
-/
import proofs.«136400_j7035156431047_1_alg».proof.Proof.Gen.KernelIdeal.Skeleton
import proofs.«136400_j7035156431047_1_alg».proof.Proof.Spec
import proofs.«136400_j7035156431047_1_alg».proof.Proof.LibDotSum
import Idealize.ShloMosaic.Lib.Pipeline.Value
import Idealize.ShloMosaic.Lib.ValueLayout
import Idealize.ShloMosaic.PureOps.Ideal.Laws

noncomputable section

namespace Cert.KernelIdeal.Pay2

open Cert.KernelIdeal Cert.KernelIdeal.Gen Idealize.ShloMosaic Idealize.ShloMosaic.ValueIdx

/-- The left operand of the block product is read on the output entry's row. -/
theorem lhs_row (i : S2000x512.Idx) (q : dot_S2000x128_S128x512_S2000x512_1_0_0_1_n_n.contr.Idx) : (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl

/-- The right operand of the block product is read on the output entry's column. -/
theorem rhs_col (i : S2000x512.Idx) (q : dot_S2000x128_S128x512_S2000x512_1_0_0_1_n_n.contr.Idx) : (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The matrix unit's product of a block of rows with the weight matrix, into a zero accumulator, is the plain sum over
    the 128 contracted features. -/
theorem mm_apply (x : FVec Ideal S2000x128 .f32) (w : FVec Ideal S128x512 .f32) (p : Fin 2000) (j : Fin 512) :
    matmul dot_S2000x128_S128x512_S2000x512_1_0_0_1_n_n none (truncf .bf16 x bitsLt_bf16_f32) (truncf .bf16 w bitsLt_bf16_f32) (constant (F := Ideal) S2000x512 .f32 0x00000000#32) (ix2 p j)
      = Cert.Spec.mm (N := 2000) (K := 128) (M := 512) x w p j := by
  refine (Ideal.matmul_constant_zero_apply dot_S2000x128_S128x512_S2000x512_1_0_0_1_n_n none _ _ (ix2 p j)).trans ?_
  refine LibDotSum.sum_single dot_S2000x128_S128x512_S2000x512_1_0_0_1_n_n 128 rfl rfl _ _ (ix2 p j) (fun k => x (ix2 p k)) (fun k => w (ix2 k j)) (fun k => ?_) (fun k => ?_)
  · refine congrArg x (funext fun a => Fin.ext ?_)
    match a with
    | ⟨0, _⟩ => exact lhs_row _ _
    | ⟨1, _⟩ => exact LibDotSum.lhs_contr_val dot_S2000x128_S128x512_S2000x512_1_0_0_1_n_n 128 rfl rfl rfl (ix2 p j) k
  · refine congrArg w (funext fun a => Fin.ext ?_)
    match a with
    | ⟨0, _⟩ => exact LibDotSum.rhs_contr_val dot_S2000x128_S128x512_S2000x512_1_0_0_1_n_n 128 rfl rfl rfl (ix2 p j) k
    | ⟨1, _⟩ => exact rhs_col _ _

/-- Entry (p, j) of the block the body stores: the product plus the bias. -/
theorem pay_apply (x : Vec Ideal S2000x128 .f32) (w : Vec Ideal S128x512 .f32) (b : Vec Ideal S1x512 .f32) (p : Fin 2000) (j : Fin 512) :
    k2_pay1 (F := Ideal) x w b (ix2 p j)
      = Cert.Spec.mm (N := 2000) (K := 128) (M := 512) x w p j + b (ix2 (0 : Fin 1) j) := by
  unfold k2_pay1
  simp only [shapeCast_self]
  refine (addf_apply _ _ (ix2 p j)).trans ?_
  exact congrArg₂ (· + ·) (mm_apply x w p j) (broadcastTo_1b_ab_apply b _ p j)

end Cert.KernelIdeal.Pay2

end
-- ==== Proof.Final2.lean ====
/-
  Pallas call 2: from its 50 row blocks to the whole output array.

  Grid point t works on rows 2000·t … 2000·t + 1999: it is handed those rows of the node-feature array, the whole weight
  matrix and the bias row, and writes back those rows of the output. Because an output entry depends on its own row of
  the inputs only, the block a point writes back is the same block of ONE whole-array function (the specification's
  projection of the arrays as the call finds them), and since the 50 blocks tile the 100000 rows the array ends holding
  that function everywhere.
-/
import proofs.«136400_j7035156431047_1_alg».proof.Proof.Gen.KernelIdeal.Frame
import proofs.«136400_j7035156431047_1_alg».proof.Proof.Pay2
import Idealize.ShloMosaic.Lib.Pipeline.Value

set_option maxRecDepth 16384

noncomputable section

namespace Cert.KernelIdeal.Final2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked inputs move with the output's row block, the weights and the bias stay
    at block (0, 0), and the output's row block number is at most 49. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 49
    ∧ win2_3.index t (1 : Fin 2) = 0 :=
  (by decide +kernel : ∀ t : Fin grid2.N, _)

/-- Every one of the 50 row blocks of the output is some grid point's. -/
theorem idx_onto : ∀ q0 : Fin 50, ∃ t : Fin cfg2.N, win2_3.index t = ![q0.val, 0] :=
  (by decide +kernel : ∀ q0 : Fin 50, ∃ t : Fin grid2.N, win2_3.index t = ![q0.val, 0])

/-- What the output array ends holding: the specification's projection of the arrays as the call finds them. -/
def G (c : Dev nD) : S100000x512.Idx → EReal :=
  Cert.Spec.affine (N := 100000) (K := 128) (M := 512) (V c main_v59) (V c main_arg8) (fun j => V c main_v60 (ix2 (0 : Fin 1) j))

/-- What grid point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x512) hz, View.ld_unit_zero (S := S1x512) hz]
  obtain ⟨e0, e1, e2, e3, e4, e5, e6, e7⟩ := idx_facts t
  funext y
  obtain ⟨p, j, rfl⟩ : ∃ (p : Fin 2000) (j : Fin 512), y = ix2 p j := ⟨y 0, y 1, eq_ix2 y⟩
  show k2_pay1 (iblk2 V c 0 t) (iblk2 V c 1 t) (iblk2 V c 2 t) (ix2 p j) = G V c (((cfg2.win 3).blk t).view.emb (ix2 p j))
  refine (Pay2.pay_apply (iblk2 V c 0 t) (iblk2 V c 1 t) (iblk2 V c 2 t) p j).trans ?_
  unfold G Cert.Spec.affine
  refine congrArg₂ (· + ·) ?_ ?_
  · unfold Cert.Spec.mm
    refine Finset.sum_congr rfl fun k _ => congrArg₂ (· * ·) ?_ ?_
    · show V c main_v59 (((cfg2.win 0).blk t).view.emb (ix2 p k)) = V c main_v59 (ix2 ((((cfg2.win 3).blk t).view.emb (ix2 p j)) 0) k)
      refine congrArg _ (funext fun a => Fin.ext ?_)
      match a with
      | ⟨0, _⟩ => show win2_0.index t (0 : Fin 2) * 2000 + 1 * p.val = win2_3.index t (0 : Fin 2) * 2000 + 1 * p.val; omega
      | ⟨1, _⟩ => show win2_0.index t (1 : Fin 2) * 128 + 1 * k.val = k.val; omega
    · show V c main_arg8 (((cfg2.win 1).blk t).view.emb (ix2 k j)) = V c main_arg8 (ix2 k ((((cfg2.win 3).blk t).view.emb (ix2 p j)) 1))
      refine congrArg _ (funext fun a => Fin.ext ?_)
      match a with
      | ⟨0, _⟩ => show win2_1.index t (0 : Fin 2) * 128 + 1 * k.val = k.val; omega
      | ⟨1, _⟩ => show win2_1.index t (1 : Fin 2) * 512 + 1 * j.val = win2_3.index t (1 : Fin 2) * 512 + 1 * j.val; omega
  · show V c main_v60 (((cfg2.win 2).blk t).view.emb (ix2 (0 : Fin 1) j)) = V c main_v60 (ix2 (0 : Fin 1) ((((cfg2.win 3).blk t).view.emb (ix2 p j)) 1))
    refine congrArg _ (funext fun a => Fin.ext ?_)
    match a with
    | ⟨0, _⟩ => show win2_2.index t (0 : Fin 2) * 1 + 1 * 0 = 0; omega
    | ⟨1, _⟩ => show win2_2.index t (1 : Fin 2) * 512 + 1 * j.val = win2_3.index t (1 : Fin 2) * 512 + 1 * j.val; omega

/-- An index of the output array is in point `t`'s block iff each coordinate is in the block's range on its axis. -/
theorem mem_blk (t : Fin cfg2.N) (i : S100000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v61).slice (win2_3.rect t)).set ↔ _
  rw [View.set_slice_whole, Rect.mem_set_unit]
  exact Iff.rfl

/-- Row r of the output lies in the block of the point whose row block number is r / 2000. -/
theorem cover (i : S100000x512.Idx) : ∃ t : Fin cfg2.N, (cfg2.win 3).flush t = true ∧ i ∈ ((cfg2.win 3).blk t).view.set := by
  have hi0 : (i 0).val < 100000 := (i 0).isLt
  have hi1 : (i 1).val < 512 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 512 ≤ (i 1).val ∧ (i 1).val < win2_3.index t (1 : Fin 2) * 512 + 512; omega

/-- The output array after the call. -/
theorem final (c : Dev nD) : (dat2 V c).arrAt 3 cfg2.N = G V c :=
  (dat2 V c).arrAt_eq_of_cover 3 (G V c) (fun t _ => flushed_eq V c t) (cover)

end Cert.KernelIdeal.Final2

end
-- ==== Proof.RefLayers.lean ====
/-
  The reference program's dense stages are the specification's.

  The reference computes each layer on whole arrays: two matrix products, their sum, the bias row broadcast over the
  rows, and the rectifier; and last one product plus a bias row. Read at an entry (r, j) each product is the sum over
  the contracted feature k of x(r,k)·w(k,j), a broadcast bias is b(j), the rectifier's other operand is 0: entry by
  entry these are the specification's `cheb` and `affine` of the stage's operands. The propagated operands (the
  message pass through the graph) are left as the reference's own terms: nothing here opens them.
-/
import proofs.«136400_j7035156431047_1_alg».proof.Proof.RefRead
import proofs.«136400_j7035156431047_1_alg».proof.Proof.Spec

noncomputable section

namespace Cert.ReferenceIdeal.Layers

open Cert.ReferenceIdeal Cert.ReferenceIdeal.ReadP Idealize.ShloMosaic Idealize.ShloMosaic.ValueIdx

/-- The first layer: `relu (x·w0 + (L̂x)·w1 + b)` with `L̂x` the reference's own message pass. -/
theorem layer1 (x0 : (⟨S100000x128, .f32⟩ : BufTy).Contents (Elt Ideal)) (x1 : (⟨S2x1600000, .i32⟩ : BufTy).Contents (Elt Ideal)) (x2 x3 : (⟨S128x100, .f32⟩ : BufTy).Contents (Elt Ideal)) (x4 : (⟨S100, .f32⟩ : BufTy).Contents (Elt Ideal)) :
    val_main_v49 (F := Ideal) x0 x1 x2 x3 x4
      = Cert.Spec.cheb (N := 100000) (K := 128) (M := 100) x0 (val_main_v42 (F := Ideal) x0 x1) x2 x3 (fun j => x4 (ix1 j)) := by
  funext i
  rw [val_main_v49_apply, val_main_v48_apply, val_main_v45_apply, val_main_v43_apply, val_main_v44_apply, val_main_v47_apply,
    val_main_v46_apply, val_main_call1_v0_apply, val_main_call1_cst_apply]
  generalize val_main_v42 (F := Ideal) x0 x1 = tx
  unfold Cert.Spec.cheb Cert.Spec.mm
  refine congrArg₂ max (congrArg₂ (· + ·) (congrArg₂ (· + ·) ?_ ?_) ?_) rfl
  · exact Finset.sum_congr rfl fun k _ => congrArg₂ (· * ·) (congrArg x0 (funext fun a => by match a with | ⟨0, _⟩ => rfl | ⟨1, _⟩ => rfl)) (congrArg x2 (funext fun a => by match a with | ⟨0, _⟩ => rfl | ⟨1, _⟩ => rfl))
  · exact Finset.sum_congr rfl fun k _ => congrArg₂ (· * ·) (congrArg tx (funext fun a => by match a with | ⟨0, _⟩ => rfl | ⟨1, _⟩ => rfl)) (congrArg x3 (funext fun a => by match a with | ⟨0, _⟩ => rfl | ⟨1, _⟩ => rfl))
  · exact congrArg x4 (funext fun a => by match a with | ⟨0, _⟩ => rfl)

/-- The second layer, on the first layer's output `h` and its message pass. -/
theorem layer2 (x0 : (⟨S100000x128, .f32⟩ : BufTy).Contents (Elt Ideal)) (x1 : (⟨S2x1600000, .i32⟩ : BufTy).Contents (Elt Ideal)) (x2 x3 : (⟨S128x100, .f32⟩ : BufTy).Contents (Elt Ideal)) (x4 : (⟨S100, .f32⟩ : BufTy).Contents (Elt Ideal))
    (x5 x6 : (⟨S100x128, .f32⟩ : BufTy).Contents (Elt Ideal)) (x7 : (⟨S128, .f32⟩ : BufTy).Contents (Elt Ideal)) :
    val_main_v99 (F := Ideal) x0 x1 x2 x3 x4 x5 x6 x7
      = Cert.Spec.cheb (N := 100000) (K := 100) (M := 128) (val_main_v49 (F := Ideal) x0 x1 x2 x3 x4) (val_main_v92 (F := Ideal) x0 x1 x2 x3 x4)
          x5 x6 (fun j => x7 (ix1 j)) := by
  funext i
  rw [val_main_v99_apply, val_main_v98_apply, val_main_v95_apply, val_main_v93_apply, val_main_v94_apply, val_main_v97_apply,
    val_main_v96_apply, val_main_call3_v0_apply, val_main_call3_cst_apply]
  generalize val_main_v49 (F := Ideal) x0 x1 x2 x3 x4 = h
  generalize val_main_v92 (F := Ideal) x0 x1 x2 x3 x4 = th
  unfold Cert.Spec.cheb Cert.Spec.mm
  refine congrArg₂ max (congrArg₂ (· + ·) (congrArg₂ (· + ·) ?_ ?_) ?_) rfl
  · exact Finset.sum_congr rfl fun k _ => congrArg₂ (· * ·) (congrArg h (funext fun a => by match a with | ⟨0, _⟩ => rfl | ⟨1, _⟩ => rfl)) (congrArg x5 (funext fun a => by match a with | ⟨0, _⟩ => rfl | ⟨1, _⟩ => rfl))
  · exact Finset.sum_congr rfl fun k _ => congrArg₂ (· * ·) (congrArg th (funext fun a => by match a with | ⟨0, _⟩ => rfl | ⟨1, _⟩ => rfl)) (congrArg x6 (funext fun a => by match a with | ⟨0, _⟩ => rfl | ⟨1, _⟩ => rfl))
  · exact congrArg x7 (funext fun a => by match a with | ⟨0, _⟩ => rfl)

/-- The projection of the second layer's output. -/
theorem layer3 (x0 : (⟨S100000x128, .f32⟩ : BufTy).Contents (Elt Ideal)) (x1 : (⟨S2x1600000, .i32⟩ : BufTy).Contents (Elt Ideal)) (x2 x3 : (⟨S128x100, .f32⟩ : BufTy).Contents (Elt Ideal)) (x4 : (⟨S100, .f32⟩ : BufTy).Contents (Elt Ideal))
    (x5 x6 : (⟨S100x128, .f32⟩ : BufTy).Contents (Elt Ideal)) (x7 : (⟨S128, .f32⟩ : BufTy).Contents (Elt Ideal)) (x8 : (⟨S128x512, .f32⟩ : BufTy).Contents (Elt Ideal)) (x9 : (⟨S512, .f32⟩ : BufTy).Contents (Elt Ideal)) :
    val_main_v103 (F := Ideal) x0 x1 x2 x3 x4 x5 x6 x7 x8 x9
      = Cert.Spec.affine (N := 100000) (K := 128) (M := 512) (val_main_v99 (F := Ideal) x0 x1 x2 x3 x4 x5 x6 x7) x8 (fun j => x9 (ix1 j)) := by
  funext i
  rw [val_main_v103_apply, val_main_v100_apply, val_main_v102_apply, val_main_v101_apply]
  generalize val_main_v99 (F := Ideal) x0 x1 x2 x3 x4 x5 x6 x7 = h
  unfold Cert.Spec.affine Cert.Spec.mm
  refine congrArg₂ (· + ·) ?_ ?_
  · exact Finset.sum_congr rfl fun k _ => congrArg₂ (· * ·) (congrArg h (funext fun a => by match a with | ⟨0, _⟩ => rfl | ⟨1, _⟩ => rfl)) (congrArg x8 (funext fun a => by match a with | ⟨0, _⟩ => rfl | ⟨1, _⟩ => rfl))
  · exact congrArg x9 (funext fun a => by match a with | ⟨0, _⟩ => rfl)

end Cert.ReferenceIdeal.Layers

end
-- ==== Proof.Pay1.lean ====
/-
  The body of pallas call 1 read at one entry of its 2000-row output block.

  The body multiplies the block of rows by the whole weight matrix on the matrix unit (into a zero accumulator, after
  a change of float format that is the identity on the extended reals), does the same for the propagated block,
  adds the two products, adds the bias row to every row and takes the maximum with zero. Entry (p, j)
  of what it stores is therefore the specification's entry computed from row p of the blocks alone.
-/
import proofs.«136400_j7035156431047_1_alg».proof.Proof.Gen.KernelIdeal.Skeleton
import proofs.«136400_j7035156431047_1_alg».proof.Proof.Spec
import proofs.«136400_j7035156431047_1_alg».proof.Proof.LibDotSum
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx

/-- The left operand of the block product is read on the output entry's row. -/
theorem lhs_row (i : S2000x128.Idx) (q : dot_S2000x100_S100x128_S2000x128_1_0_0_1_n_n.contr.Idx) : (dot_S2000x100_S100x128_S2000x128_1_0_0_1_n_n.lhsIdx i q 0).val = (i 0).val := by
  unfold DotDims.lhsIdx
  rw [dif_neg (show ¬(0 : Fin S2000x100.rank) ∈ dot_S2000x100_S100x128_S2000x128_1_0_0_1_n_n.lhsBatch by decide), dif_pos (show (0 : Fin S2000x100.rank) ∈ dot_S2000x100_S100x128_S2000x128_1_0_0_1_n_n.lhsNonContracting by decide)]
  rfl

/-- The right operand of the block product is read on the output entry's column. -/
theorem rhs_col (i : S2000x128.Idx) (q : dot_S2000x100_S100x128_S2000x128_1_0_0_1_n_n.contr.Idx) : (dot_S2000x100_S100x128_S2000x128_1_0_0_1_n_n.rhsIdx i q 1).val = (i 1).val := by
  unfold DotDims.rhsIdx
  rw [dif_neg (show ¬(1 : Fin S100x128.rank) ∈ dot_S2000x100_S100x128_S2000x128_1_0_0_1_n_n.rhsBatch by decide), dif_pos (show (1 : Fin S100x128.rank) ∈ dot_S2000x100_S100x128_S2000x128_1_0_0_1_n_n.rhsNonContracting by decide)]
  rfl

/-- The matrix unit's product of a block of rows with the weight matrix, into a zero accumulator, is the plain sum over
    the 100 contracted features. -/
theorem mm_apply (x : FVec Ideal S2000x100 .f32) (w : FVec Ideal S100x128 .f32) (p : Fin 2000) (j : Fin 128) :
    matmul dot_S2000x100_S100x128_S2000x128_1_0_0_1_n_n none (truncf .bf16 x bitsLt_bf16_f32) (truncf .bf16 w bitsLt_bf16_f32) (constant (F := Ideal) S2000x128 .f32 0x00000000#32) (ix2 p j)
      = Cert.Spec.mm (N := 2000) (K := 100) (M := 128) x w p j := by
  refine (Ideal.matmul_constant_zero_apply dot_S2000x100_S100x128_S2000x128_1_0_0_1_n_n none _ _ (ix2 p j)).trans ?_
  refine LibDotSum.sum_single dot_S2000x100_S100x128_S2000x128_1_0_0_1_n_n 100 rfl rfl _ _ (ix2 p j) (fun k => x (ix2 p k)) (fun k => w (ix2 k j)) (fun k => ?_) (fun k => ?_)
  · refine congrArg x (funext fun a => Fin.ext ?_)
    match a with
    | ⟨0, _⟩ => exact lhs_row _ _
    | ⟨1, _⟩ => exact LibDotSum.lhs_contr_val dot_S2000x100_S100x128_S2000x128_1_0_0_1_n_n 100 rfl rfl rfl (ix2 p j) k
  · refine congrArg w (funext fun a => Fin.ext ?_)
    match a with
    | ⟨0, _⟩ => exact LibDotSum.rhs_contr_val dot_S2000x100_S100x128_S2000x128_1_0_0_1_n_n 100 rfl rfl rfl (ix2 p j) k
    | ⟨1, _⟩ => exact rhs_col _ _

/-- Entry (p, j) of the block the body stores: the rectified sum of the two products and the bias. -/
theorem pay_apply (x : Vec Ideal S2000x100 .f32) (w0 : Vec Ideal S100x128 .f32) (tx : Vec Ideal S2000x100 .f32) (w1 : Vec Ideal S100x128 .f32)
    (b : Vec Ideal S1x128 .f32) (p : Fin 2000) (j : Fin 128) :
    k1_pay1 (F := Ideal) x w0 tx w1 b (ix2 p j)
      = max (Cert.Spec.mm (N := 2000) (K := 100) (M := 128) x w0 p j + Cert.Spec.mm (N := 2000) (K := 100) (M := 128) tx w1 p j
          + b (ix2 (0 : Fin 1) j)) (Ideal.ofBits .f32 0x00000000#32) := by
  unfold k1_pay1
  simp only [shapeCast_self]
  refine (maximumf_apply _ _ (ix2 p j)).trans ?_
  refine congrArg₂ max ?_ rfl
  refine (addf_apply _ _ (ix2 p j)).trans ?_
  refine congrArg₂ (· + ·) ?_ (broadcastTo_1b_ab_apply b _ p j)
  refine (addf_apply _ _ (ix2 p j)).trans ?_
  exact congrArg₂ (· + ·) (mm_apply x w0 p j) (mm_apply tx w1 p j)

end Cert.KernelIdeal.Pay1

end
-- ==== Proof.Final1.lean ====
/-
  Pallas call 1: from its 50 row blocks to the whole output array.

  Grid point t works on rows 2000·t … 2000·t + 1999: it is handed those rows of the node-feature arrays, the whole weight
  matrices and the bias row, and writes back those rows of the output. Because an output entry depends on its own row of
  the inputs only, the block a point writes back is the same block of ONE whole-array function (the specification's
  layer of the arrays as the call finds them), and since the 50 blocks tile the 100000 rows the array ends holding
  that function everywhere.
-/
import proofs.«136400_j7035156431047_1_alg».proof.Proof.Gen.KernelIdeal.Frame
import proofs.«136400_j7035156431047_1_alg».proof.Proof.Pay1
import Idealize.ShloMosaic.Lib.Pipeline.Value

set_option maxRecDepth 16384

noncomputable section

namespace Cert.KernelIdeal.Final1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked inputs move with the output's row block, the weights and the bias stay
    at block (0, 0), and the output's row block number is at most 49. -/
theorem idx_facts : ∀ t : Fin cfg1.N,
    win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) ≤ 49
    ∧ win1_5.index t (1 : Fin 2) = 0 :=
  (by decide +kernel : ∀ t : Fin grid1.N, _)

/-- Every one of the 50 row blocks of the output is some grid point's. -/
theorem idx_onto : ∀ q0 : Fin 50, ∃ t : Fin cfg1.N, win1_5.index t = ![q0.val, 0] :=
  (by decide +kernel : ∀ q0 : Fin 50, ∃ t : Fin grid1.N, win1_5.index t = ![q0.val, 0])

/-- What the output array ends holding: the specification's layer of the arrays as the call finds them. -/
def G (c : Dev nD) : S100000x128.Idx → EReal :=
  Cert.Spec.cheb (N := 100000) (K := 100) (M := 128) (V c main_v44) (V c main_v57) (V c main_arg5) (V c main_arg6) (fun j => V c main_v58 (ix2 (0 : Fin 1) j))

/-- What grid point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x100) hz, View.ld_unit_zero (S := S100x128) hz, View.ld_unit_zero (S := S1x128) hz]
  obtain ⟨e0, e1, e2, e3, e4, e5, e6, e7, e8, e9, e10, e11⟩ := idx_facts t
  funext y
  obtain ⟨p, j, rfl⟩ : ∃ (p : Fin 2000) (j : Fin 128), y = ix2 p j := ⟨y 0, y 1, eq_ix2 y⟩
  show k1_pay1 (iblk1 V c 0 t) (iblk1 V c 2 t) (iblk1 V c 1 t) (iblk1 V c 3 t) (iblk1 V c 4 t) (ix2 p j) = G V c (((cfg1.win 5).blk t).view.emb (ix2 p j))
  refine (Pay1.pay_apply (iblk1 V c 0 t) (iblk1 V c 2 t) (iblk1 V c 1 t) (iblk1 V c 3 t) (iblk1 V c 4 t) p j).trans ?_
  unfold G Cert.Spec.cheb
  refine congrArg₂ max (congrArg₂ (· + ·) (congrArg₂ (· + ·) ?_ ?_) ?_) rfl
  · unfold Cert.Spec.mm
    refine Finset.sum_congr rfl fun k _ => congrArg₂ (· * ·) ?_ ?_
    · show V c main_v44 (((cfg1.win 0).blk t).view.emb (ix2 p k)) = V c main_v44 (ix2 ((((cfg1.win 5).blk t).view.emb (ix2 p j)) 0) k)
      refine congrArg _ (funext fun a => Fin.ext ?_)
      match a with
      | ⟨0, _⟩ => show win1_0.index t (0 : Fin 2) * 2000 + 1 * p.val = win1_5.index t (0 : Fin 2) * 2000 + 1 * p.val; omega
      | ⟨1, _⟩ => show win1_0.index t (1 : Fin 2) * 100 + 1 * k.val = k.val; omega
    · show V c main_arg5 (((cfg1.win 2).blk t).view.emb (ix2 k j)) = V c main_arg5 (ix2 k ((((cfg1.win 5).blk t).view.emb (ix2 p j)) 1))
      refine congrArg _ (funext fun a => Fin.ext ?_)
      match a with
      | ⟨0, _⟩ => show win1_2.index t (0 : Fin 2) * 100 + 1 * k.val = k.val; omega
      | ⟨1, _⟩ => show win1_2.index t (1 : Fin 2) * 128 + 1 * j.val = win1_5.index t (1 : Fin 2) * 128 + 1 * j.val; omega
  · unfold Cert.Spec.mm
    refine Finset.sum_congr rfl fun k _ => congrArg₂ (· * ·) ?_ ?_
    · show V c main_v57 (((cfg1.win 1).blk t).view.emb (ix2 p k)) = V c main_v57 (ix2 ((((cfg1.win 5).blk t).view.emb (ix2 p j)) 0) k)
      refine congrArg _ (funext fun a => Fin.ext ?_)
      match a with
      | ⟨0, _⟩ => show win1_1.index t (0 : Fin 2) * 2000 + 1 * p.val = win1_5.index t (0 : Fin 2) * 2000 + 1 * p.val; omega
      | ⟨1, _⟩ => show win1_1.index t (1 : Fin 2) * 100 + 1 * k.val = k.val; omega
    · show V c main_arg6 (((cfg1.win 3).blk t).view.emb (ix2 k j)) = V c main_arg6 (ix2 k ((((cfg1.win 5).blk t).view.emb (ix2 p j)) 1))
      refine congrArg _ (funext fun a => Fin.ext ?_)
      match a with
      | ⟨0, _⟩ => show win1_3.index t (0 : Fin 2) * 100 + 1 * k.val = k.val; omega
      | ⟨1, _⟩ => show win1_3.index t (1 : Fin 2) * 128 + 1 * j.val = win1_5.index t (1 : Fin 2) * 128 + 1 * j.val; omega
  · show V c main_v58 (((cfg1.win 4).blk t).view.emb (ix2 (0 : Fin 1) j)) = V c main_v58 (ix2 (0 : Fin 1) ((((cfg1.win 5).blk t).view.emb (ix2 p j)) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * j.val = win1_5.index t (1 : Fin 2) * 128 + 1 * j.val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v59).slice (win1_5.rect t)).set ↔ _
  rw [View.set_slice_whole, Rect.mem_set_unit]
  exact Iff.rfl

/-- Row r of the output lies in the block of the point whose row block number is r / 2000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the call. -/
theorem final (c : Dev nD) : (dat1 V c).arrAt 5 cfg1.N = G V c :=
  (dat1 V c).arrAt_eq_of_cover 5 (G V c) (fun t _ => flushed_eq V c t) (cover)

end Cert.KernelIdeal.Final1

end
-- ==== Proof.Pay0.lean ====
/-
  The body of pallas call 0 read at one entry of its 2000-row output block.

  The body multiplies the block of rows by the whole weight matrix on the matrix unit (into a zero accumulator, after
  a change of float format that is the identity on the extended reals), does the same for the propagated block,
  adds the two products, adds the bias row to every row and takes the maximum with zero. Entry (p, j)
  of what it stores is therefore the specification's entry computed from row p of the blocks alone.
-/
import proofs.«136400_j7035156431047_1_alg».proof.Proof.Gen.KernelIdeal.Skeleton
import proofs.«136400_j7035156431047_1_alg».proof.Proof.Spec
import proofs.«136400_j7035156431047_1_alg».proof.Proof.LibDotSum
import Idealize.ShloMosaic.Lib.Pipeline.Value
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.ValueIdx

/-- The left operand of the block product is read on the output entry's row. -/
theorem lhs_row (i : S2000x100.Idx) (q : dot_S2000x128_S128x100_S2000x100_1_0_0_1_n_n.contr.Idx) : (dot_S2000x128_S128x100_S2000x100_1_0_0_1_n_n.lhsIdx i q 0).val = (i 0).val := by
  unfold DotDims.lhsIdx
  rw [dif_neg (show ¬(0 : Fin S2000x128.rank) ∈ dot_S2000x128_S128x100_S2000x100_1_0_0_1_n_n.lhsBatch by decide), dif_pos (show (0 : Fin S2000x128.rank) ∈ dot_S2000x128_S128x100_S2000x100_1_0_0_1_n_n.lhsNonContracting by decide)]
  rfl

/-- The right operand of the block product is read on the output entry's column. -/
theorem rhs_col (i : S2000x100.Idx) (q : dot_S2000x128_S128x100_S2000x100_1_0_0_1_n_n.contr.Idx) : (dot_S2000x128_S128x100_S2000x100_1_0_0_1_n_n.rhsIdx i q 1).val = (i 1).val := by
  unfold DotDims.rhsIdx
  rw [dif_neg (show ¬(1 : Fin S128x100.rank) ∈ dot_S2000x128_S128x100_S2000x100_1_0_0_1_n_n.rhsBatch by decide), dif_pos (show (1 : Fin S128x100.rank) ∈ dot_S2000x128_S128x100_S2000x100_1_0_0_1_n_n.rhsNonContracting by decide)]
  rfl

/-- The matrix unit's product of a block of rows with the weight matrix, into a zero accumulator, is the plain sum over
    the 128 contracted features. -/
theorem mm_apply (x : FVec Ideal S2000x128 .f32) (w : FVec Ideal S128x100 .f32) (p : Fin 2000) (j : Fin 100) :
    matmul dot_S2000x128_S128x100_S2000x100_1_0_0_1_n_n none (truncf .bf16 x bitsLt_bf16_f32) (truncf .bf16 w bitsLt_bf16_f32) (constant (F := Ideal) S2000x100 .f32 0x00000000#32) (ix2 p j)
      = Cert.Spec.mm (N := 2000) (K := 128) (M := 100) x w p j := by
  refine (Ideal.matmul_constant_zero_apply dot_S2000x128_S128x100_S2000x100_1_0_0_1_n_n none _ _ (ix2 p j)).trans ?_
  refine LibDotSum.sum_single dot_S2000x128_S128x100_S2000x100_1_0_0_1_n_n 128 rfl rfl _ _ (ix2 p j) (fun k => x (ix2 p k)) (fun k => w (ix2 k j)) (fun k => ?_) (fun k => ?_)
  · refine congrArg x (funext fun a => Fin.ext ?_)
    match a with
    | ⟨0, _⟩ => exact lhs_row _ _
    | ⟨1, _⟩ => exact LibDotSum.lhs_contr_val dot_S2000x128_S128x100_S2000x100_1_0_0_1_n_n 128 rfl rfl rfl (ix2 p j) k
  · refine congrArg w (funext fun a => Fin.ext ?_)
    match a with
    | ⟨0, _⟩ => exact LibDotSum.rhs_contr_val dot_S2000x128_S128x100_S2000x100_1_0_0_1_n_n 128 rfl rfl rfl (ix2 p j) k
    | ⟨1, _⟩ => exact rhs_col _ _

/-- Entry (p, j) of the block the body stores: the rectified sum of the two products and the bias. -/
theorem pay_apply (x : Vec Ideal S2000x128 .f32) (w0 : Vec Ideal S128x100 .f32) (tx : Vec Ideal S2000x128 .f32) (w1 : Vec Ideal S128x100 .f32)
    (b : Vec Ideal S1x100 .f32) (p : Fin 2000) (j : Fin 100) :
    k0_pay1 (F := Ideal) x w0 tx w1 b (ix2 p j)
      = max (Cert.Spec.mm (N := 2000) (K := 128) (M := 100) x w0 p j + Cert.Spec.mm (N := 2000) (K := 128) (M := 100) tx w1 p j
          + b (ix2 (0 : Fin 1) j)) (Ideal.ofBits .f32 0x00000000#32) := by
  unfold k0_pay1
  simp only [shapeCast_self]
  refine (maximumf_apply _ _ (ix2 p j)).trans ?_
  refine congrArg₂ max ?_ rfl
  refine (addf_apply _ _ (ix2 p j)).trans ?_
  refine congrArg₂ (· + ·) ?_ (broadcastTo_1b_ab_apply b _ p j)
  refine (addf_apply _ _ (ix2 p j)).trans ?_
  exact congrArg₂ (· + ·) (mm_apply x w0 p j) (mm_apply tx w1 p j)

end Cert.KernelIdeal.Pay0

end
-- ==== Proof.Final0.lean ====
/-
  Pallas call 0: from its 50 row blocks to the whole output array.

  Grid point t works on rows 2000·t … 2000·t + 1999: it is handed those rows of the node-feature arrays, the whole weight
  matrices and the bias row, and writes back those rows of the output. Because an output entry depends on its own row of
  the inputs only, the block a point writes back is the same block of ONE whole-array function (the specification's
  layer of the arrays as the call finds them), and since the 50 blocks tile the 100000 rows the array ends holding
  that function everywhere.
-/
import proofs.«136400_j7035156431047_1_alg».proof.Proof.Gen.KernelIdeal.Frame
import proofs.«136400_j7035156431047_1_alg».proof.Proof.Pay0
import Idealize.ShloMosaic.Lib.Pipeline.Value

set_option maxRecDepth 16384

noncomputable section

namespace Cert.KernelIdeal.Final0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked inputs move with the output's row block, the weights and the bias stay
    at block (0, 0), and the output's row block number is at most 49. -/
theorem idx_facts : ∀ t : Fin cfg0.N,
    win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) ≤ 49
    ∧ win0_5.index t (1 : Fin 2) = 0 :=
  (by decide +kernel : ∀ t : Fin grid0.N, _)

/-- Every one of the 50 row blocks of the output is some grid point's. -/
theorem idx_onto : ∀ q0 : Fin 50, ∃ t : Fin cfg0.N, win0_5.index t = ![q0.val, 0] :=
  (by decide +kernel : ∀ q0 : Fin 50, ∃ t : Fin grid0.N, win0_5.index t = ![q0.val, 0])

/-- What the output array ends holding: the specification's layer of the arrays as the call finds them. -/
def G (c : Dev nD) : S100000x100.Idx → EReal :=
  Cert.Spec.cheb (N := 100000) (K := 128) (M := 100) (V c main_arg0) (V c main_v42) (V c main_arg2) (V c main_arg3) (fun j => V c main_v43 (ix2 (0 : Fin 1) j))

/-- What grid point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x100) hz, View.ld_unit_zero (S := S1x100) hz]
  obtain ⟨e0, e1, e2, e3, e4, e5, e6, e7, e8, e9, e10, e11⟩ := idx_facts t
  funext y
  obtain ⟨p, j, rfl⟩ : ∃ (p : Fin 2000) (j : Fin 100), y = ix2 p j := ⟨y 0, y 1, eq_ix2 y⟩
  show k0_pay1 (iblk0 V c 0 t) (iblk0 V c 2 t) (iblk0 V c 1 t) (iblk0 V c 3 t) (iblk0 V c 4 t) (ix2 p j) = G V c (((cfg0.win 5).blk t).view.emb (ix2 p j))
  refine (Pay0.pay_apply (iblk0 V c 0 t) (iblk0 V c 2 t) (iblk0 V c 1 t) (iblk0 V c 3 t) (iblk0 V c 4 t) p j).trans ?_
  unfold G Cert.Spec.cheb
  refine congrArg₂ max (congrArg₂ (· + ·) (congrArg₂ (· + ·) ?_ ?_) ?_) rfl
  · unfold Cert.Spec.mm
    refine Finset.sum_congr rfl fun k _ => congrArg₂ (· * ·) ?_ ?_
    · show V c main_arg0 (((cfg0.win 0).blk t).view.emb (ix2 p k)) = V c main_arg0 (ix2 ((((cfg0.win 5).blk t).view.emb (ix2 p j)) 0) k)
      refine congrArg _ (funext fun a => Fin.ext ?_)
      match a with
      | ⟨0, _⟩ => show win0_0.index t (0 : Fin 2) * 2000 + 1 * p.val = win0_5.index t (0 : Fin 2) * 2000 + 1 * p.val; omega
      | ⟨1, _⟩ => show win0_0.index t (1 : Fin 2) * 128 + 1 * k.val = k.val; omega
    · show V c main_arg2 (((cfg0.win 2).blk t).view.emb (ix2 k j)) = V c main_arg2 (ix2 k ((((cfg0.win 5).blk t).view.emb (ix2 p j)) 1))
      refine congrArg _ (funext fun a => Fin.ext ?_)
      match a with
      | ⟨0, _⟩ => show win0_2.index t (0 : Fin 2) * 128 + 1 * k.val = k.val; omega
      | ⟨1, _⟩ => show win0_2.index t (1 : Fin 2) * 100 + 1 * j.val = win0_5.index t (1 : Fin 2) * 100 + 1 * j.val; omega
  · unfold Cert.Spec.mm
    refine Finset.sum_congr rfl fun k _ => congrArg₂ (· * ·) ?_ ?_
    · show V c main_v42 (((cfg0.win 1).blk t).view.emb (ix2 p k)) = V c main_v42 (ix2 ((((cfg0.win 5).blk t).view.emb (ix2 p j)) 0) k)
      refine congrArg _ (funext fun a => Fin.ext ?_)
      match a with
      | ⟨0, _⟩ => show win0_1.index t (0 : Fin 2) * 2000 + 1 * p.val = win0_5.index t (0 : Fin 2) * 2000 + 1 * p.val; omega
      | ⟨1, _⟩ => show win0_1.index t (1 : Fin 2) * 128 + 1 * k.val = k.val; omega
    · show V c main_arg3 (((cfg0.win 3).blk t).view.emb (ix2 k j)) = V c main_arg3 (ix2 k ((((cfg0.win 5).blk t).view.emb (ix2 p j)) 1))
      refine congrArg _ (funext fun a => Fin.ext ?_)
      match a with
      | ⟨0, _⟩ => show win0_3.index t (0 : Fin 2) * 128 + 1 * k.val = k.val; omega
      | ⟨1, _⟩ => show win0_3.index t (1 : Fin 2) * 100 + 1 * j.val = win0_5.index t (1 : Fin 2) * 100 + 1 * j.val; omega
  · show V c main_v43 (((cfg0.win 4).blk t).view.emb (ix2 (0 : Fin 1) j)) = V c main_v43 (ix2 (0 : Fin 1) ((((cfg0.win 5).blk t).view.emb (ix2 p j)) 1))
    refine congrArg _ (funext fun a => Fin.ext ?_)
    match a with
    | ⟨0, _⟩ => show win0_4.index t (0 : Fin 2) * 1 + 1 * 0 = 0; omega
    | ⟨1, _⟩ => show win0_4.index t (1 : Fin 2) * 100 + 1 * j.val = win0_5.index t (1 : Fin 2) * 100 + 1 * j.val; omega

/-- An index of the output array is in point `t`'s block iff each coordinate is in the block's range on its axis. -/
theorem mem_blk (t : Fin cfg0.N) (i : S100000x100.Idx) :
    i ∈ ((cfg0.win 5).blk t).view.set ↔ ∀ a : Fin 2, win0_5.index t a * S2000x100.size a ≤ (i a).val ∧ (i a).val < win0_5.index t a * S2000x100.size a + S2000x100.size a := by
  show i ∈ ((View.whole main_v44).slice (win0_5.rect t)).set ↔ _
  rw [View.set_slice_whole, Rect.mem_set_unit]
  exact Iff.rfl

/-- Row r of the output lies in the block of the point whose row block number is r / 2000. -/
theorem cover (i : S100000x100.Idx) : ∃ t : Fin cfg0.N, (cfg0.win 5).flush t = true ∧ i ∈ ((cfg0.win 5).blk t).view.set := by
  have hi0 : (i 0).val < 100000 := (i 0).isLt
  have hi1 : (i 1).val < 100 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 100 ≤ (i 1).val ∧ (i 1).val < win0_5.index t (1 : Fin 2) * 100 + 100; omega

/-- The output array after the call. -/
theorem final (c : Dev nD) : (dat0 V c).arrAt 5 cfg0.N = G V c :=
  (dat0 V c).arrAt_eq_of_cover 5 (G V c) (fun t _ => flushed_eq V c t) (cover)

end Cert.KernelIdeal.Final0

end
-- ==== Proof.Seg0.lean ====
/-
  After the first stretch of host operations: the edge list split into source and destination node numbers, the
  nodes' degrees (edges counted at their source), the comparison `degree > 0` and the inverse square root of
  `max (degree, 1)`. The reference applies the same operations to the edge list, so each buffer holds the reference's
  own term; no argument array is written.
-/
import proofs.«136400_j7035156431047_1_alg».proof.Proof.Gen.KernelIdeal.Frame
import proofs.«136400_j7035156431047_1_alg».proof.Proof.RefRead
import Idealize.ShloMosaic.Lib.StableHlo.Run
import Idealize.ShloMosaic.Lib.ValueIdx

set_option maxRecDepth 16384

noncomputable section

namespace Cert.KernelIdeal.Seg0

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
theorem src : W1 m ρ c (Proc.devRef .tc main_v1) = Cert.ReferenceIdeal.ReadP.val_main_v1 (F := Ideal) (m ((c.tc : Thread nD τ).loc main_arg1)) := by
  show StableHlo.after hostOps0 (W0 m ρ c) (Proc.devRef .tc main_v1) = _
  after_results_simp <;> rfl

set_option maxHeartbeats 4000000 in
theorem dst : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_simp <;> rfl

set_option maxHeartbeats 4000000 in
theorem degPos : W1 m ρ c (Proc.devRef .tc main_v9) = Cert.ReferenceIdeal.ReadP.val_main_v9 (F := Ideal) (m ((c.tc : Thread nD τ).loc main_arg1)) := by
  show StableHlo.after hostOps0 (W0 m ρ c) (Proc.devRef .tc main_v9) = _
  after_results_simp <;> rfl

set_option maxHeartbeats 4000000 in
theorem degRsqrt : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results_simp <;> rfl

set_option maxHeartbeats 4000000 in
theorem zero : W1 m ρ c (Proc.devRef .tc main_cst_3) = Cert.ReferenceIdeal.ReadP.val_main_cst_3 (F := Ideal) := by
  show StableHlo.after hostOps0 (W0 m ρ c) (Proc.devRef .tc main_cst_3) = _
  after_results_simp <;> rfl

set_option maxHeartbeats 4000000 in
theorem arg0 : W1 m ρ c (Proc.devRef .tc main_arg0) = (m ((c.tc : Thread nD τ).loc main_arg0)) := by
  show StableHlo.after hostOps0 (W0 m ρ c) (Proc.devRef .tc main_arg0) = _
  after_results_simp <;> rfl

set_option maxHeartbeats 4000000 in
theorem arg2 : W1 m ρ c (Proc.devRef .tc main_arg2) = (m ((c.tc : Thread nD τ).loc main_arg2)) := by
  show StableHlo.after hostOps0 (W0 m ρ c) (Proc.devRef .tc main_arg2) = _
  after_results_simp <;> rfl

set_option maxHeartbeats 4000000 in
theorem arg3 : W1 m ρ c (Proc.devRef .tc main_arg3) = (m ((c.tc : Thread nD τ).loc main_arg3)) := by
  show StableHlo.after hostOps0 (W0 m ρ c) (Proc.devRef .tc main_arg3) = _
  after_results_simp <;> rfl

set_option maxHeartbeats 4000000 in
theorem arg4 : W1 m ρ c (Proc.devRef .tc main_arg4) = (m ((c.tc : Thread nD τ).loc main_arg4)) := by
  show StableHlo.after hostOps0 (W0 m ρ c) (Proc.devRef .tc main_arg4) = _
  after_results_simp <;> rfl

set_option maxHeartbeats 4000000 in
theorem arg5 : W1 m ρ c (Proc.devRef .tc main_arg5) = (m ((c.tc : Thread nD τ).loc main_arg5)) := by
  show StableHlo.after hostOps0 (W0 m ρ c) (Proc.devRef .tc main_arg5) = _
  after_results_simp <;> rfl

set_option maxHeartbeats 4000000 in
theorem arg6 : W1 m ρ c (Proc.devRef .tc main_arg6) = (m ((c.tc : Thread nD τ).loc main_arg6)) := by
  show StableHlo.after hostOps0 (W0 m ρ c) (Proc.devRef .tc main_arg6) = _
  after_results_simp <;> rfl

set_option maxHeartbeats 4000000 in
theorem arg7 : W1 m ρ c (Proc.devRef .tc main_arg7) = (m ((c.tc : Thread nD τ).loc main_arg7)) := by
  show StableHlo.after hostOps0 (W0 m ρ c) (Proc.devRef .tc main_arg7) = _
  after_results_simp <;> rfl

set_option maxHeartbeats 4000000 in
theorem arg8 : W1 m ρ c (Proc.devRef .tc main_arg8) = (m ((c.tc : Thread nD τ).loc main_arg8)) := by
  show StableHlo.after hostOps0 (W0 m ρ c) (Proc.devRef .tc main_arg8) = _
  after_results_simp <;> rfl

set_option maxHeartbeats 4000000 in
theorem arg9 : W1 m ρ c (Proc.devRef .tc main_arg9) = (m ((c.tc : Thread nD τ).loc main_arg9)) := by
  show StableHlo.after hostOps0 (W0 m ρ c) (Proc.devRef .tc main_arg9) = _
  after_results_simp <;> rfl

end Cert.KernelIdeal.Seg0

end
-- ==== Proof.Seg1.lean ====
/-
  After the outlined `where`: the inverse square-root degree of every node, zero where the node has no outgoing edge.
  The select's three operands are what the first stretch left, which are the reference's terms, so its result is the
  reference's. Nothing else is written.
-/
import proofs.«136400_j7035156431047_1_alg».proof.Proof.Gen.KernelIdeal.Frame
import proofs.«136400_j7035156431047_1_alg».proof.Proof.RefRead
import proofs.«136400_j7035156431047_1_alg».proof.Proof.Seg0
import Idealize.ShloMosaic.Lib.StableHlo.Run
import Idealize.ShloMosaic.Lib.ValueIdx

set_option maxRecDepth 16384

noncomputable section

namespace Cert.KernelIdeal.Seg1

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The outlined `where` on any three operands: its operations move each value between its tensor type and its buffer's
    type, which are the same type, so the result is the plain select against the broadcast scalar. -/
theorem call_where (X : (⟨S100000, .i1⟩ : BufTy).Contents (Elt Ideal)) (Y : (⟨S100000, .f32⟩ : BufTy).Contents (Elt Ideal))
    (Z : (⟨S_, .f32⟩ : BufTy).Contents (Elt Ideal)) :
    (StableHlo.TRef.of (sig := sig) (T := ⟨S100000, .f32⟩) main_v13).toBuf (Val := Elt Ideal)
      (select ((StableHlo.TRef.of (sig := sig) (T := ⟨S100000, .i1⟩) main_v9).ofBuf (Val := Elt Ideal) X)
        ((StableHlo.TRef.of (sig := sig) (T := ⟨S100000, .f32⟩) main_v12).ofBuf (Val := Elt Ideal) Y)
        ((StableHlo.TRef.of (sig := sig) (T := ⟨S100000, .f32⟩) main_call0_v1).ofBuf (Val := Elt Ideal)
          ((StableHlo.TRef.of (sig := sig) (T := ⟨S100000, .f32⟩) main_call0_v1).toBuf (Val := Elt Ideal)
            (broadcastInDim S100000 ![] bcast_S_S100000
              ((StableHlo.TRef.of (sig := sig) (T := ⟨S_, .f32⟩) main_call0_v0).ofBuf (Val := Elt Ideal)
                ((StableHlo.TRef.of (sig := sig) (T := ⟨S_, .f32⟩) main_call0_v0).toBuf (Val := Elt Ideal)
                  (id ((StableHlo.TRef.of (sig := sig) (T := ⟨S_, .f32⟩) main_cst_3).ofBuf (Val := Elt Ideal) Z))))))))
      = select X Y (broadcastInDim S100000 ![] bcast_S_S100000 (id Z)) := rfl

set_option maxHeartbeats 4000000 in
theorem dinv : W2 m ρ c (Proc.devRef .tc main_v13) = Cert.ReferenceIdeal.ReadP.val_main_v13 (F := Ideal) (m ((c.tc : Thread nD τ).loc main_arg1)) := by
  have h9 := Seg0.degPos m ρ c
  have h12 := Seg0.degRsqrt m ρ c
  have hz := Seg0.zero m ρ c
  show StableHlo.after hostOps0_1 (W1 m ρ c) (Proc.devRef .tc main_v13) = _
  generalize W1 m ρ c = W at h9 h12 hz ⊢
  after_results_simp
  rw [h9, h12, hz]
  refine (call_where _ _ _).trans ?_
  rfl

set_option maxHeartbeats 4000000 in
theorem src : W2 m ρ c (Proc.devRef .tc main_v1) = Cert.ReferenceIdeal.ReadP.val_main_v1 (F := Ideal) (m ((c.tc : Thread nD τ).loc main_arg1)) := by
  have h := Seg0.src m ρ c
  show StableHlo.after hostOps0_1 (W1 m ρ c) (Proc.devRef .tc main_v1) = _
  generalize W1 m ρ c = W at h ⊢
  after_results_simp
  exact h

set_option maxHeartbeats 4000000 in
theorem dst : W2 m ρ c (Proc.devRef .tc main_v3) = Cert.ReferenceIdeal.ReadP.val_main_v3 (F := Ideal) (m ((c.tc : Thread nD τ).loc main_arg1)) := by
  have h := Seg0.dst m ρ c
  show StableHlo.after hostOps0_1 (W1 m ρ c) (Proc.devRef .tc main_v3) = _
  generalize W1 m ρ c = W at h ⊢
  after_results_simp
  exact h

set_option maxHeartbeats 4000000 in
theorem arg0 : W2 m ρ c (Proc.devRef .tc main_arg0) = (m ((c.tc : Thread nD τ).loc main_arg0)) := by
  have h := Seg0.arg0 m ρ c
  show StableHlo.after hostOps0_1 (W1 m ρ c) (Proc.devRef .tc main_arg0) = _
  generalize W1 m ρ c = W at h ⊢
  after_results_simp
  exact h

set_option maxHeartbeats 4000000 in
theorem arg2 : W2 m ρ c (Proc.devRef .tc main_arg2) = (m ((c.tc : Thread nD τ).loc main_arg2)) := by
  have h := Seg0.arg2 m ρ c
  show StableHlo.after hostOps0_1 (W1 m ρ c) (Proc.devRef .tc main_arg2) = _
  generalize W1 m ρ c = W at h ⊢
  after_results_simp
  exact h

set_option maxHeartbeats 4000000 in
theorem arg3 : W2 m ρ c (Proc.devRef .tc main_arg3) = (m ((c.tc : Thread nD τ).loc main_arg3)) := by
  have h := Seg0.arg3 m ρ c
  show StableHlo.after hostOps0_1 (W1 m ρ c) (Proc.devRef .tc main_arg3) = _
  generalize W1 m ρ c = W at h ⊢
  after_results_simp
  exact h

set_option maxHeartbeats 4000000 in
theorem arg4 : W2 m ρ c (Proc.devRef .tc main_arg4) = (m ((c.tc : Thread nD τ).loc main_arg4)) := by
  have h := Seg0.arg4 m ρ c
  show StableHlo.after hostOps0_1 (W1 m ρ c) (Proc.devRef .tc main_arg4) = _
  generalize W1 m ρ c = W at h ⊢
  after_results_simp
  exact h

set_option maxHeartbeats 4000000 in
theorem arg5 : W2 m ρ c (Proc.devRef .tc main_arg5) = (m ((c.tc : Thread nD τ).loc main_arg5)) := by
  have h := Seg0.arg5 m ρ c
  show StableHlo.after hostOps0_1 (W1 m ρ c) (Proc.devRef .tc main_arg5) = _
  generalize W1 m ρ c = W at h ⊢
  after_results_simp
  exact h

set_option maxHeartbeats 4000000 in
theorem arg6 : W2 m ρ c (Proc.devRef .tc main_arg6) = (m ((c.tc : Thread nD τ).loc main_arg6)) := by
  have h := Seg0.arg6 m ρ c
  show StableHlo.after hostOps0_1 (W1 m ρ c) (Proc.devRef .tc main_arg6) = _
  generalize W1 m ρ c = W at h ⊢
  after_results_simp
  exact h

set_option maxHeartbeats 4000000 in
theorem arg7 : W2 m ρ c (Proc.devRef .tc main_arg7) = (m ((c.tc : Thread nD τ).loc main_arg7)) := by
  have h := Seg0.arg7 m ρ c
  show StableHlo.after hostOps0_1 (W1 m ρ c) (Proc.devRef .tc main_arg7) = _
  generalize W1 m ρ c = W at h ⊢
  after_results_simp
  exact h

set_option maxHeartbeats 4000000 in
theorem arg8 : W2 m ρ c (Proc.devRef .tc main_arg8) = (m ((c.tc : Thread nD τ).loc main_arg8)) := by
  have h := Seg0.arg8 m ρ c
  show StableHlo.after hostOps0_1 (W1 m ρ c) (Proc.devRef .tc main_arg8) = _
  generalize W1 m ρ c = W at h ⊢
  after_results_simp
  exact h

set_option maxHeartbeats 4000000 in
theorem arg9 : W2 m ρ c (Proc.devRef .tc main_arg9) = (m ((c.tc : Thread nD τ).loc main_arg9)) := by
  have h := Seg0.arg9 m ρ c
  show StableHlo.after hostOps0_1 (W1 m ρ c) (Proc.devRef .tc main_arg9) = _
  generalize W1 m ρ c = W at h ⊢
  after_results_simp
  exact h

end Cert.KernelIdeal.Seg1

end
-- ==== Proof.Seg2.lean ====
/-
  What the first pallas call finds.

  The last stretch before the first call computes the edge weights (minus the product of the two endpoints' inverse
  square-root degrees), gathers the source node's feature row along every edge, scales it by the edge weight and adds it
  up at the destination node, and lays the bias vector out as one row. These are the reference's operations on the same
  operands, so the propagated features are the reference's first message pass, and the edge data are the terms the
  reference computes again before its second layer.
-/
import proofs.«136400_j7035156431047_1_alg».proof.Proof.Gen.KernelIdeal.Frame
import proofs.«136400_j7035156431047_1_alg».proof.Proof.RefRead
import proofs.«136400_j7035156431047_1_alg».proof.Proof.Seg1
import Idealize.ShloMosaic.Lib.StableHlo.Run
import Idealize.ShloMosaic.Lib.ValueLayout
import Idealize.ShloMosaic.Lib.ValueIdx

set_option maxRecDepth 16384

noncomputable section

namespace Cert.KernelIdeal.Seg2

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The reference computes the edges' endpoints and weights once per layer, by the same operations of the edge list. -/
theorem src_again (x1 : (⟨Cert.ReferenceIdeal.S2x1600000, .i32⟩ : BufTy).Contents (Elt Ideal)) :
    Cert.ReferenceIdeal.ReadP.val_main_v1 (F := Ideal) x1 = Cert.ReferenceIdeal.ReadP.val_main_v51 (F := Ideal) x1 := rfl
theorem dst_again (x1 : (⟨Cert.ReferenceIdeal.S2x1600000, .i32⟩ : BufTy).Contents (Elt Ideal)) :
    Cert.ReferenceIdeal.ReadP.val_main_v3 (F := Ideal) x1 = Cert.ReferenceIdeal.ReadP.val_main_v53 (F := Ideal) x1 := rfl
theorem weight_again (x1 : (⟨Cert.ReferenceIdeal.S2x1600000, .i32⟩ : BufTy).Contents (Elt Ideal)) :
    Cert.ReferenceIdeal.ReadP.val_main_v29 (F := Ideal) x1 = Cert.ReferenceIdeal.ReadP.val_main_v79 (F := Ideal) x1 := rfl

set_option maxHeartbeats 16000000 in
/-- The edge weights. -/
theorem weight : W3 m ρ c (Proc.devRef .tc main_v29) = Cert.ReferenceIdeal.ReadP.val_main_v79 (F := Ideal) (m ((c.tc : Thread nD τ).loc main_arg1)) := by
  refine Eq.trans ?_ (weight_again (m ((c.tc : Thread nD τ).loc main_arg1)))
  have h13 := Seg1.dinv m ρ c
  have h1 := Seg1.src m ρ c
  have h3 := Seg1.dst m ρ c
  show StableHlo.after hostOps0_2 (W2 m ρ c) (Proc.devRef .tc main_v29) = _
  generalize W2 m ρ c = W at h13 h1 h3 ⊢
  after_results_simp
  rw [h13, h1, h3]
  rfl

set_option maxHeartbeats 16000000 in
/-- The first message pass. -/
theorem pass : W3 m ρ c (Proc.devRef .tc main_v42) = Cert.ReferenceIdeal.ReadP.val_main_v42 (F := Ideal) (m ((c.tc : Thread nD τ).loc main_arg0)) (m ((c.tc : Thread nD τ).loc main_arg1)) := by
  have h13 := Seg1.dinv m ρ c
  have h1 := Seg1.src m ρ c
  have h3 := Seg1.dst m ρ c
  have h0 := Seg1.arg0 m ρ c
  show StableHlo.after hostOps0_2 (W2 m ρ c) (Proc.devRef .tc main_v42) = _
  generalize W2 m ρ c = W at h13 h1 h3 h0 ⊢
  after_results_simp
  rw [h13, h1, h3, h0]
  rfl

set_option maxHeartbeats 4000000 in
theorem src : W3 m ρ c (Proc.devRef .tc main_v1) = Cert.ReferenceIdeal.ReadP.val_main_v51 (F := Ideal) (m ((c.tc : Thread nD τ).loc main_arg1)) := by
  refine Eq.trans ?_ (src_again (m ((c.tc : Thread nD τ).loc main_arg1)))
  have h := Seg1.src m ρ c
  show StableHlo.after hostOps0_2 (W2 m ρ c) (Proc.devRef .tc main_v1) = _
  generalize W2 m ρ c = W at h ⊢
  after_results_simp
  exact h

set_option maxHeartbeats 4000000 in
theorem dst : W3 m ρ c (Proc.devRef .tc main_v3) = Cert.ReferenceIdeal.ReadP.val_main_v53 (F := Ideal) (m ((c.tc : Thread nD τ).loc main_arg1)) := by
  refine Eq.trans ?_ (dst_again (m ((c.tc : Thread nD τ).loc main_arg1)))
  have h := Seg1.dst m ρ c
  show StableHlo.after hostOps0_2 (W2 m ρ c) (Proc.devRef .tc main_v3) = _
  generalize W2 m ρ c = W at h ⊢
  after_results_simp
  exact h

set_option maxHeartbeats 4000000 in
/-- The first layer's bias row. -/
theorem bias (j : Fin 100) : W3 m ρ c (Proc.devRef .tc main_v43) (ix2 (0 : Fin 1) j) = (m ((c.tc : Thread nD τ).loc main_arg4)) (ix1 j) := by
  have e : W3 m ρ c (Proc.devRef .tc main_v43) = shapeCast S1x100 (m ((c.tc : Thread nD τ).loc main_arg4)) shapeCasts_S100_S1x100 := by
    have h := Seg1.arg4 m ρ c
    show StableHlo.after hostOps0_2 (W2 m ρ c) (Proc.devRef .tc main_v43) = _
    generalize W2 m ρ c = W at h ⊢
    after_results_simp
    rw [h]
    rfl
  rw [e]
  exact shapeCast_a_1a_apply (m ((c.tc : Thread nD τ).loc main_arg4)) shapeCasts_S100_S1x100 0 j

set_option maxHeartbeats 4000000 in
theorem arg0 : W3 m ρ c (Proc.devRef .tc main_arg0) = (m ((c.tc : Thread nD τ).loc main_arg0)) := by
  have h := Seg1.arg0 m ρ c
  show StableHlo.after hostOps0_2 (W2 m ρ c) (Proc.devRef .tc main_arg0) = _
  generalize W2 m ρ c = W at h ⊢
  after_results_simp
  exact h

set_option maxHeartbeats 4000000 in
theorem arg2 : W3 m ρ c (Proc.devRef .tc main_arg2) = (m ((c.tc : Thread nD τ).loc main_arg2)) := by
  have h := Seg1.arg2 m ρ c
  show StableHlo.after hostOps0_2 (W2 m ρ c) (Proc.devRef .tc main_arg2) = _
  generalize W2 m ρ c = W at h ⊢
  after_results_simp
  exact h

set_option maxHeartbeats 4000000 in
theorem arg3 : W3 m ρ c (Proc.devRef .tc main_arg3) = (m ((c.tc : Thread nD τ).loc main_arg3)) := by
  have h := Seg1.arg3 m ρ c
  show StableHlo.after hostOps0_2 (W2 m ρ c) (Proc.devRef .tc main_arg3) = _
  generalize W2 m ρ c = W at h ⊢
  after_results_simp
  exact h

set_option maxHeartbeats 4000000 in
theorem arg4 : W3 m ρ c (Proc.devRef .tc main_arg4) = (m ((c.tc : Thread nD τ).loc main_arg4)) := by
  have h := Seg1.arg4 m ρ c
  show StableHlo.after hostOps0_2 (W2 m ρ c) (Proc.devRef .tc main_arg4) = _
  generalize W2 m ρ c = W at h ⊢
  after_results_simp
  exact h

set_option maxHeartbeats 4000000 in
theorem arg5 : W3 m ρ c (Proc.devRef .tc main_arg5) = (m ((c.tc : Thread nD τ).loc main_arg5)) := by
  have h := Seg1.arg5 m ρ c
  show StableHlo.after hostOps0_2 (W2 m ρ c) (Proc.devRef .tc main_arg5) = _
  generalize W2 m ρ c = W at h ⊢
  after_results_simp
  exact h

set_option maxHeartbeats 4000000 in
theorem arg6 : W3 m ρ c (Proc.devRef .tc main_arg6) = (m ((c.tc : Thread nD τ).loc main_arg6)) := by
  have h := Seg1.arg6 m ρ c
  show StableHlo.after hostOps0_2 (W2 m ρ c) (Proc.devRef .tc main_arg6) = _
  generalize W2 m ρ c = W at h ⊢
  after_results_simp
  exact h

set_option maxHeartbeats 4000000 in
theorem arg7 : W3 m ρ c (Proc.devRef .tc main_arg7) = (m ((c.tc : Thread nD τ).loc main_arg7)) := by
  have h := Seg1.arg7 m ρ c
  show StableHlo.after hostOps0_2 (W2 m ρ c) (Proc.devRef .tc main_arg7) = _
  generalize W2 m ρ c = W at h ⊢
  after_results_simp
  exact h

set_option maxHeartbeats 4000000 in
theorem arg8 : W3 m ρ c (Proc.devRef .tc main_arg8) = (m ((c.tc : Thread nD τ).loc main_arg8)) := by
  have h := Seg1.arg8 m ρ c
  show StableHlo.after hostOps0_2 (W2 m ρ c) (Proc.devRef .tc main_arg8) = _
  generalize W2 m ρ c = W at h ⊢
  after_results_simp
  exact h

set_option maxHeartbeats 4000000 in
theorem arg9 : W3 m ρ c (Proc.devRef .tc main_arg9) = (m ((c.tc : Thread nD τ).loc main_arg9)) := by
  have h := Seg1.arg9 m ρ c
  show StableHlo.after hostOps0_2 (W2 m ρ c) (Proc.devRef .tc main_arg9) = _
  generalize W2 m ρ c = W at h ⊢
  after_results_simp
  exact h

end Cert.KernelIdeal.Seg2

end
-- ==== Proof.Entry1.lean ====
/-
  What the second pallas call finds: the first layer's output, its message pass, the second layer's weights and bias.

  The first call leaves in its output array the specification's layer of what it found, which is the reference's first
  layer. The host operations between the two calls run the message pass on that array with the edge data computed
  before the first call, as the reference does before its second layer. Nothing but the first call's own arrays
  changed meanwhile, so the edge data and the arguments are still what they were.
-/
import proofs.«136400_j7035156431047_1_alg».proof.Proof.Gen.KernelIdeal.Frame
import proofs.«136400_j7035156431047_1_alg».proof.Proof.Final0
import proofs.«136400_j7035156431047_1_alg».proof.Proof.RefLayers
import proofs.«136400_j7035156431047_1_alg».proof.Proof.Seg2
import Idealize.ShloMosaic.Lib.StableHlo.Run
import Idealize.ShloMosaic.Lib.ValueLayout
import Idealize.ShloMosaic.Lib.ValueIdx

set_option maxRecDepth 16384

noncomputable section

namespace Cert.KernelIdeal.Entry1

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first call's output array is the reference's first layer. -/
theorem layer1 : W4 m ρ c (Proc.devRef .tc main_v44) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 5).trans ?_
  refine (Final0.final (V3 m ρ) c).trans ?_
  refine Eq.trans ?_ (Cert.ReferenceIdeal.Layers.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm
  unfold Final0.G
  refine Cert.Spec.cheb_congr (Seg2.arg0 m ρ c) (Seg2.pass m ρ c) (Seg2.arg2 m ρ c) (Seg2.arg3 m ρ c)
    (funext fun j => Seg2.bias m ρ c j)

/-- The first call changes none of the buffers below. -/
theorem src : W4 m ρ c (Proc.devRef .tc main_v1) = Cert.ReferenceIdeal.ReadP.val_main_v51 (F := Ideal) (m ((c.tc : Thread nD τ).loc main_arg1)) :=
  (W4_of_ne m ρ c main_v1 (by decide)).trans (Seg2.src m ρ c)
theorem dst : W4 m ρ c (Proc.devRef .tc main_v3) = Cert.ReferenceIdeal.ReadP.val_main_v53 (F := Ideal) (m ((c.tc : Thread nD τ).loc main_arg1)) :=
  (W4_of_ne m ρ c main_v3 (by decide)).trans (Seg2.dst m ρ c)
theorem weight : W4 m ρ c (Proc.devRef .tc main_v29) = Cert.ReferenceIdeal.ReadP.val_main_v79 (F := Ideal) (m ((c.tc : Thread nD τ).loc main_arg1)) :=
  (W4_of_ne m ρ c main_v29 (by decide)).trans (Seg2.weight m ρ c)
theorem exit0_arg5 : W4 m ρ c (Proc.devRef .tc main_arg5) = (m ((c.tc : Thread nD τ).loc main_arg5)) :=
  (W4_of_ne m ρ c main_arg5 (by decide)).trans (Seg2.arg5 m ρ c)
theorem exit0_arg6 : W4 m ρ c (Proc.devRef .tc main_arg6) = (m ((c.tc : Thread nD τ).loc main_arg6)) :=
  (W4_of_ne m ρ c main_arg6 (by decide)).trans (Seg2.arg6 m ρ c)
theorem exit0_arg7 : W4 m ρ c (Proc.devRef .tc main_arg7) = (m ((c.tc : Thread nD τ).loc main_arg7)) :=
  (W4_of_ne m ρ c main_arg7 (by decide)).trans (Seg2.arg7 m ρ c)
theorem exit0_arg8 : W4 m ρ c (Proc.devRef .tc main_arg8) = (m ((c.tc : Thread nD τ).loc main_arg8)) :=
  (W4_of_ne m ρ c main_arg8 (by decide)).trans (Seg2.arg8 m ρ c)
theorem exit0_arg9 : W4 m ρ c (Proc.devRef .tc main_arg9) = (m ((c.tc : Thread nD τ).loc main_arg9)) :=
  (W4_of_ne m ρ c main_arg9 (by decide)).trans (Seg2.arg9 m ρ c)

set_option maxHeartbeats 4000000 in
/-- Argument 5 is as launched when the second call is entered. -/
theorem arg5 : W5 m ρ c (Proc.devRef .tc main_arg5) = (m ((c.tc : Thread nD τ).loc main_arg5)) := by
  show StableHlo.after hostOps1 (W4 m ρ c) (Proc.devRef .tc main_arg5) = _
  after_results_simp
  exact exit0_arg5 m ρ c

set_option maxHeartbeats 4000000 in
/-- Argument 6 is as launched when the second call is entered. -/
theorem arg6 : W5 m ρ c (Proc.devRef .tc main_arg6) = (m ((c.tc : Thread nD τ).loc main_arg6)) := by
  show StableHlo.after hostOps1 (W4 m ρ c) (Proc.devRef .tc main_arg6) = _
  after_results_simp
  exact exit0_arg6 m ρ c

set_option maxHeartbeats 4000000 in
/-- Argument 8 is as launched when the second call is entered. -/
theorem arg8 : W5 m ρ c (Proc.devRef .tc main_arg8) = (m ((c.tc : Thread nD τ).loc main_arg8)) := by
  show StableHlo.after hostOps1 (W4 m ρ c) (Proc.devRef .tc main_arg8) = _
  after_results_simp
  exact exit0_arg8 m ρ c

set_option maxHeartbeats 4000000 in
/-- Argument 9 is as launched when the second call is entered. -/
theorem arg9 : W5 m ρ c (Proc.devRef .tc main_arg9) = (m ((c.tc : Thread nD τ).loc main_arg9)) := by
  show StableHlo.after hostOps1 (W4 m ρ c) (Proc.devRef .tc main_arg9) = _
  after_results_simp
  exact exit0_arg9 m ρ c

set_option maxHeartbeats 4000000 in
/-- The first layer's output is still in place when the second call is entered. -/
theorem hidden : W5 m ρ c (Proc.devRef .tc main_v44) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W4 m ρ c) (Proc.devRef .tc main_v44) = _
  after_results_simp
  exact layer1 m ρ c

set_option maxHeartbeats 16000000 in
/-- The second message pass, on the first layer's output. -/
theorem pass : W5 m ρ c (Proc.devRef .tc main_v57) = Cert.ReferenceIdeal.ReadP.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W4 m ρ c) (Proc.devRef .tc main_v57) = _
  after_results_simp
  rw [src m ρ c, dst m ρ c, weight m ρ c, layer1 m ρ c]
  rfl

set_option maxHeartbeats 4000000 in
/-- The second layer's bias row. -/
theorem bias (j : Fin 128) : W5 m ρ c (Proc.devRef .tc main_v58) (ix2 (0 : Fin 1) j) = (m ((c.tc : Thread nD τ).loc main_arg7)) (ix1 j) := by
  have e : W5 m ρ c (Proc.devRef .tc main_v58) = shapeCast S1x128 (m ((c.tc : Thread nD τ).loc main_arg7)) shapeCasts_S128_S1x128 := by
    show StableHlo.after hostOps1 (W4 m ρ c) (Proc.devRef .tc main_v58) = _
    after_results_simp
    rw [exit0_arg7 m ρ c]
    rfl
  rw [e]
  exact shapeCast_a_1a_apply (m ((c.tc : Thread nD τ).loc main_arg7)) shapeCasts_S128_S1x128 0 j

end Cert.KernelIdeal.Entry1

end
-- ==== Proof.Entry2.lean ====
/-
  What the third pallas call finds: the second layer's output, the projection's weights and bias.

  The second call leaves in its output array the specification's layer of what it found: the reference's second layer.
  Only a re-layout of the bias vector runs between the second and third calls.
-/
import proofs.«136400_j7035156431047_1_alg».proof.Proof.Gen.KernelIdeal.Frame
import proofs.«136400_j7035156431047_1_alg».proof.Proof.Final1
import proofs.«136400_j7035156431047_1_alg».proof.Proof.RefLayers
import proofs.«136400_j7035156431047_1_alg».proof.Proof.Entry1
import Idealize.ShloMosaic.Lib.StableHlo.Run
import Idealize.ShloMosaic.Lib.ValueLayout
import Idealize.ShloMosaic.Lib.ValueIdx

set_option maxRecDepth 16384

noncomputable section

namespace Cert.KernelIdeal.Entry2

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The second call's output array is the reference's second layer. -/
theorem layer2 : W6 m ρ c (Proc.devRef .tc main_v59) = Cert.ReferenceIdeal.ReadP.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 5).trans ?_
  refine (Final1.final (V5 m ρ) c).trans ?_
  refine Eq.trans ?_ (Cert.ReferenceIdeal.Layers.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm
  unfold Final1.G
  refine Cert.Spec.cheb_congr (Entry1.hidden m ρ c) (Entry1.pass m ρ c) (Entry1.arg5 m ρ c) (Entry1.arg6 m ρ c)
    (funext fun j => Entry1.bias m ρ c j)

theorem exit1_arg8 : W6 m ρ c (Proc.devRef .tc main_arg8) = (m ((c.tc : Thread nD τ).loc main_arg8)) :=
  (W6_of_ne m ρ c main_arg8 (by decide)).trans (Entry1.arg8 m ρ c)
theorem exit1_arg9 : W6 m ρ c (Proc.devRef .tc main_arg9) = (m ((c.tc : Thread nD τ).loc main_arg9)) :=
  (W6_of_ne m ρ c main_arg9 (by decide)).trans (Entry1.arg9 m ρ c)

set_option maxHeartbeats 4000000 in
/-- The second layer's output is still in place when the third call is entered. -/
theorem hidden : W7 m ρ c (Proc.devRef .tc main_v59) = Cert.ReferenceIdeal.ReadP.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W6 m ρ c) (Proc.devRef .tc main_v59) = _
  after_results_simp
  exact layer2 m ρ c

set_option maxHeartbeats 4000000 in
/-- The projection's weights are as launched. -/
theorem arg8 : W7 m ρ c (Proc.devRef .tc main_arg8) = (m ((c.tc : Thread nD τ).loc main_arg8)) := by
  show StableHlo.after hostOps2 (W6 m ρ c) (Proc.devRef .tc main_arg8) = _
  after_results_simp
  exact exit1_arg8 m ρ c

set_option maxHeartbeats 4000000 in
/-- The projection's bias row. -/
theorem bias (j : Fin 512) : W7 m ρ c (Proc.devRef .tc main_v60) (ix2 (0 : Fin 1) j) = (m ((c.tc : Thread nD τ).loc main_arg9)) (ix1 j) := by
  have e : W7 m ρ c (Proc.devRef .tc main_v60) = shapeCast S1x512 (m ((c.tc : Thread nD τ).loc main_arg9)) shapeCasts_S512_S1x512 := by
    show StableHlo.after hostOps2 (W6 m ρ c) (Proc.devRef .tc main_v60) = _
    after_results_simp
    rw [exit1_arg9 m ρ c]
    rfl
  rw [e]
  exact shapeCast_a_1a_apply (m ((c.tc : Thread nD τ).loc main_arg9)) shapeCasts_S512_S1x512 0 j

end Cert.KernelIdeal.Entry2

end
-- ==== Proof.Result.lean ====
/-
  The kernel program's result array is the reference's result term of the arguments.

  The third call leaves in its output array the specification's projection of what it found, the second layer's output
  under the projection's weights and bias: the reference's last stage.
-/
import proofs.«136400_j7035156431047_1_alg».proof.Proof.Gen.KernelIdeal.Frame
import proofs.«136400_j7035156431047_1_alg».proof.Proof.Final2
import proofs.«136400_j7035156431047_1_alg».proof.Proof.RefLayers
import proofs.«136400_j7035156431047_1_alg».proof.Proof.Entry2
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The result array after the run. -/
theorem result : W8 m ρ c (Proc.devRef .tc main_v61) = Cert.ReferenceIdeal.ReadP.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W8_arr m ρ c 3).trans ?_
  refine (Final2.final (V7 m ρ) c).trans ?_
  refine Eq.trans ?_ (Cert.ReferenceIdeal.Layers.layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).symm
  unfold Final2.G
  refine Cert.Spec.affine_congr (Entry2.hidden m ρ c) (Entry2.arg8 m ρ c) (funext fun j => Entry2.bias m ρ c j)

end Cert.KernelIdeal.Result

end
-- ==== Proof.lean ====
/-
  A two-layer Chebyshev graph convolution (K = 2, symmetric normalisation) followed by a linear projection, on 100000
  nodes and 1600000 edges: the Pallas program against its jnp reference, on the extended reals.

  Both programs compute, for node features x and the edge list,
      h₁ = max(x·W₁₀ + (L̂x)·W₁₁ + b₁, 0),   h₂ = max(h₁·W₂₀ + (L̂h₁)·W₂₁ + b₂, 0),   out = h₂·W + b,
  where L̂ gathers a node's feature row along each edge, scales it by minus the product of the endpoints' inverse
  square-root degrees and adds it up at the edge's destination. The message pass L̂ runs as the same host operations in
  both programs (the Pallas program computes the edge weights once, the reference once per layer, by the same
  operations of the edge list), so it is never opened: the propagated arrays are carried as the reference's own terms.
  What differs is the dense stage. The Pallas program computes each in a pallas call tiled over 50 blocks of 2000 rows,
  multiplying on the matrix unit into a zero accumulator after a format change that is the identity on the extended
  reals; the reference multiplies whole arrays. An output row depends on the same row of the inputs only, and a finite
  sum of products does not depend on how it is scheduled, so block by block the calls write the rows of the reference's
  whole-array stages. No law that needs finiteness is used: the precondition is never opened.

  The three frames are the generated ones (the reference's is its run with the result dropped); the idealization rewrote
  nothing, so `preserves` is trivial.
-/
import proofs.«136400_j7035156431047_1_alg».proof.Defs
import proofs.«136400_j7035156431047_1_alg».proof.Proof.Gen.Kernel
import proofs.«136400_j7035156431047_1_alg».proof.Proof.Gen.Kernel.Skeleton
import proofs.«136400_j7035156431047_1_alg».proof.Proof.Gen.Kernel.Launch
import proofs.«136400_j7035156431047_1_alg».proof.Proof.Gen.Kernel.Points
import proofs.«136400_j7035156431047_1_alg».proof.Proof.Gen.Kernel.Frame
import proofs.«136400_j7035156431047_1_alg».proof.Proof.Gen.KernelIdeal
import proofs.«136400_j7035156431047_1_alg».proof.Proof.Gen.KernelIdeal.Skeleton
import proofs.«136400_j7035156431047_1_alg».proof.Proof.Gen.KernelIdeal.Launch
import proofs.«136400_j7035156431047_1_alg».proof.Proof.Gen.KernelIdeal.Points
import proofs.«136400_j7035156431047_1_alg».proof.Proof.Gen.KernelIdeal.Frame
import proofs.«136400_j7035156431047_1_alg».proof.Proof.Gen.ReferenceIdeal
import proofs.«136400_j7035156431047_1_alg».proof.Proof.Gen.Pre_finite_inputs
import proofs.«136400_j7035156431047_1_alg».proof.Proof.RefRun
import proofs.«136400_j7035156431047_1_alg».proof.Proof.RefRead
import proofs.«136400_j7035156431047_1_alg».proof.Proof.KRun
import proofs.«136400_j7035156431047_1_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the reference's result term of the arguments: the Pallas program by the
    three calls' block-to-array readings chained through the host operations between them, the reference by its run. -/
theorem algebraic : Cert.algebraic_KernelIdeal_ReferenceIdeal := by
  intro m ρ m' ρ' _ hagree
  refine ⟨fun c => Cert.ReferenceIdeal.ReadP.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result m ρ c), (h c).2⟩) (Cert.KernelIdeal.Run.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.ReadP.val_main_v103_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
